-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S1 : Shape := ⟨1, ![1]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1 : S_.BroadcastsInDim S1 (![] : Fin 0 → Fin S1.rank)
  reducesTo_S1_S_d0 : S1.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x4096x1024 .f32) (main_arg1 : FVec F S1024x1024 .f32) (main_arg2 : FVec F S1 .f32) (main_arg3 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x4096x1024 : Shape := ⟨3, ![8, 4096, 1024]⟩
abbrev S1024x1024 : Shape := ⟨2, ![1024, 1024]⟩
abbrev S1 : Shape := ⟨1, ![1]⟩
abbrev S1024 : Shape := ⟨1, ![1024]⟩
abbrev S_ : Shape := ⟨0, ![]⟩
abbrev S1x1 : Shape := ⟨2, ![1, 1]⟩
abbrev S32768x1024 : Shape := ⟨2, ![32768, 1024]⟩
abbrev S1x1024 : Shape := ⟨2, ![1, 1024]⟩

abbrev nBuf : Space → Nat
  | .hbm => 34
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1, .f32⟩
  | .hbm, ⟨3, _⟩ => ⟨S1024, .f32⟩
  | .hbm, ⟨4, _⟩ => ⟨S1024x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1024x1024, .f32⟩
  | .hbm, ⟨12, _⟩ => ⟨S1024x1024, .i1⟩
  | .hbm, ⟨13, _⟩ => ⟨S_, .f32⟩
  | .hbm, ⟨14, _⟩ => ⟨S1024x1024, .f32⟩
  | .hbm, ⟨15, _⟩ => ⟨S1024x1024, .i1⟩
  | .hbm, ⟨16, _⟩ => ⟨S_, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1x1, .f32⟩
  | .hbm, ⟨26, _⟩ => ⟨S1024x1024, .f32⟩
  | .hbm, ⟨27, _⟩ => ⟨S1024x1024, .f32⟩
  | .hbm, ⟨28, _⟩ => ⟨S1024x1024, .bf16⟩
  | .hbm, ⟨29, _⟩ => ⟨S1024x1024, .bf16⟩
  | .hbm, ⟨30, _⟩ => ⟨S32768x1024, .f32⟩
  | .hbm, ⟨31, _⟩ => ⟨S1x1024, .f32⟩
  | .hbm, ⟨32, _⟩ => ⟨S32768x1024, .f32⟩
  | .hbm, ⟨33, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_cst_4 : Ref sig .tc := ⟨.hbm, 21, rfl⟩
abbrev main_call1_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S1024x1024_S_d0_1 : S1024x1024.ReducesTo [0, 1] S_
  h_S_ : 0 < S_.numel
  bcast_S_S1024x1024 : S_.BroadcastsInDim S1024x1024 (![] : Fin 0 → Fin S1024x1024.rank)
  bcast_S1_S1x1_1 : S1.BroadcastsInDim S1x1 (![1] : Fin 1 → Fin S1x1.rank)
  bcast_S1x1_S1024x1024_0_1 : S1x1.BroadcastsInDim S1024x1024 (![0, 1] : Fin 2 → Fin S1024x1024.rank)
  bitsLt_bf16_f32 : FTy.bits .bf16 < FTy.bits .f32
  transposes_S1024x1024_S1024x1024_1_0 : S1024x1024.Transposes [1, 0] S1024x1024
  shapeCasts_S8x4096x1024_S32768x1024 : S8x4096x1024.ShapeCasts S32768x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S32768x1024_S8x4096x1024 : S32768x1024.ShapeCasts S8x4096x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v17) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S1 : Shape := ⟨1, ![1]⟩
abbrev S1024 : Shape := ⟨1, ![1024]⟩
abbrev S_ : Shape := ⟨0, ![]⟩
abbrev S1x1 : Shape := ⟨2, ![1, 1]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1, .f32⟩
  | .hbm, ⟨3, _⟩ => ⟨S1024, .f32⟩
  | .hbm, ⟨4, _⟩ => ⟨S1024x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1024x1024, .f32⟩
  | .hbm, ⟨12, _⟩ => ⟨S1024x1024, .i1⟩
  | .hbm, ⟨13, _⟩ => ⟨S_, .f32⟩
  | .hbm, ⟨14, _⟩ => ⟨S1024x1024, .f32⟩
  | .hbm, ⟨15, _⟩ => ⟨S1024x1024, .i1⟩
  | .hbm, ⟨16, _⟩ => ⟨S_, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1x1, .f32⟩
  | .hbm, ⟨26, _⟩ => ⟨S1024x1024, .f32⟩
  | .hbm, ⟨27, _⟩ => ⟨S1024x1024, .f32⟩
  | .hbm, ⟨28, _⟩ => ⟨S8x4096x1024, .f32⟩
  | .hbm, ⟨29, _⟩ => ⟨S1x1x1024, .f32⟩
  | .hbm, ⟨30, _⟩ => ⟨S8x4096x1024, .f32⟩
  | .hbm, ⟨31, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_cst_4 : Ref sig .tc := ⟨.hbm, 21, rfl⟩
abbrev main_call1_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]

class Facts₀ : Prop where
  reducesTo_S1024x1024_S_d0_1 : S1024x1024.ReducesTo [0, 1] S_
  h_S_ : 0 < S_.numel
  bcast_S_S1024x1024 : S_.BroadcastsInDim S1024x1024 (![] : Fin 0 → Fin S1024x1024.rank)
  bcast_S1_S1x1_1 : S1.BroadcastsInDim S1x1 (![1] : Fin 1 → Fin S1x1.rank)
  bcast_S1x1_S1024x1024_0_1 : S1x1.BroadcastsInDim S1024x1024 (![0, 1] : Fin 2 → Fin S1024x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S1024x1024_S8x4096x1024_2_1_01_0_n_n_wf : DotDims.WF S8x4096x1024 S1024x1024 S8x4096x1024 [2] [1] [0, 1] [0] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf

class Facts : Prop extends Facts₀ where

variable [Facts]
-- ==== Proof.Payload.lean ====
/-
  The kernel body's stored value at one index.

  At a grid point the body holds a block `X : [1024, 1024]` of activation rows, the whole transposed quantized weight
  `Wt : [1024 (in), 1024 (out)]` and the bias as a row `B : [1, 1024]`. It rounds `X` to bf16 (no change of value on the
  extended reals), multiplies `X · Wt` into a zero accumulator and adds the bias row to every row:
      stored[r, n] = (∑ k, X[r, k] · Wt[k, n]) + B[0, n].
-/
import proofs.«125868_j44702019617522_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.TernaryLinear

open Idealize.ShloMosaic Idealize.ShloMosaic.ValueIdx Cert.KernelIdeal Cert.KernelIdeal.Gen

/-- The matrix product's left operand index at output `(r, n)` and contraction position `k` is `(r, k)`. -/
theorem mm_lhs (j : S1024x1024.Idx) (k : Fin 1024) :
    dot_S1024x1024_S1024x1024_S1024x1024_1_0_0_1_n_n.lhsIdx j
      ((contrEquiv1 dot_S1024x1024_S1024x1024_S1024x1024_1_0_0_1_n_n 1024 rfl rfl).symm k) = ix2 (j 0) k := by
  have hk := contrEquiv1_symm_val dot_S1024x1024_S1024x1024_S1024x1024_1_0_0_1_n_n 1024 rfl rfl k
  funext a
  apply Fin.ext
  match a with
  | ⟨0, _⟩ =>
    show (dot_S1024x1024_S1024x1024_S1024x1024_1_0_0_1_n_n.lhsIdx j _ 0).val = (j 0).val
    unfold DotDims.lhsIdx
    rw [dif_neg (show ¬(0 : Fin S1024x1024.rank) ∈ dot_S1024x1024_S1024x1024_S1024x1024_1_0_0_1_n_n.lhsBatch by decide),
      dif_pos (show (0 : Fin S1024x1024.rank) ∈ dot_S1024x1024_S1024x1024_S1024x1024_1_0_0_1_n_n.lhsNonContracting by decide)]
    rfl
  | ⟨1, _⟩ =>
    exact (dot_S1024x1024_S1024x1024_S1024x1024_1_0_0_1_n_n.lhsIdx_val_of_single (cl := 1) rfl j _).trans hk

/-- The right operand index there is `(k, n)`. -/
theorem mm_rhs (j : S1024x1024.Idx) (k : Fin 1024) :
    dot_S1024x1024_S1024x1024_S1024x1024_1_0_0_1_n_n.rhsIdx j
      ((contrEquiv1 dot_S1024x1024_S1024x1024_S1024x1024_1_0_0_1_n_n 1024 rfl rfl).symm k) = ix2 k (j 1) := by
  have hk := contrEquiv1_symm_val dot_S1024x1024_S1024x1024_S1024x1024_1_0_0_1_n_n 1024 rfl rfl k
  funext a
  apply Fin.ext
  match a with
  | ⟨0, _⟩ =>
    exact (dot_S1024x1024_S1024x1024_S1024x1024_1_0_0_1_n_n.rhsIdx_val_of_single (cr := 0) rfl j _).trans hk
  | ⟨1, _⟩ =>
    show (dot_S1024x1024_S1024x1024_S1024x1024_1_0_0_1_n_n.rhsIdx j _ 1).val = (j 1).val
    unfold DotDims.rhsIdx
    rw [dif_neg (show ¬(1 : Fin S1024x1024.rank) ∈ dot_S1024x1024_S1024x1024_S1024x1024_1_0_0_1_n_n.rhsBatch by decide),
      dif_pos (show (1 : Fin S1024x1024.rank) ∈ dot_S1024x1024_S1024x1024_S1024x1024_1_0_0_1_n_n.rhsNonContracting by decide)]
    rfl

/-- The product into the zero accumulator, at `(r, n)`: the row `L[r, ·]` against the column `R[·, n]`. -/
theorem mm_at (L : FVec Ideal S1024x1024 .bf16) (R : FVec Ideal S1024x1024 .bf16) (r n : Fin 1024) :
    matmul dot_S1024x1024_S1024x1024_S1024x1024_1_0_0_1_n_n none L R (constant S1024x1024 .f32 0x00000000#32) (ix2 r n)
      = ∑ k : Fin 1024, L (ix2 r k) * R (ix2 k n) := by
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  rw [mm_lhs, mm_rhs]
  rfl

/-- The bias row broadcast to every row reads `B[0, n]` at `(r, n)`. -/
theorem bias_rows_at (B : FVec Ideal S1x1024 .f32) (r n : Fin 1024) :
    broadcastTo S1024x1024 B broadcasts_S1x1024_S1024x1024 (ix2 r n) = B (ix2 (0 : Fin 1) n) :=
  broadcastTo_apply B _ _ _ fun a => match a with
    | ⟨0, _⟩ => by show 0 = if (1 : Nat) = 1 then 0 else _; rw [if_pos rfl]
    | ⟨1, _⟩ => by show n.val = if (1024 : Nat) = 1 then 0 else n.val; rw [if_neg (by decide)]

/-- The body's stored value at `(r, n)`. -/
theorem body_at (X : FVec Ideal S1024x1024 .f32) (Wt : FVec Ideal S1024x1024 .bf16) (B : FVec Ideal S1x1024 .f32)
    (r n : Fin 1024) :
    k0_pay1 (F := Ideal) X Wt B (ix2 r n) = (∑ k : Fin 1024, X (ix2 r k) * Wt (ix2 k n)) + B (ix2 (0 : Fin 1) n) := by
  unfold k0_pay1
  simp only [shapeCast_self]
  refine (addf_apply _ _ _).trans ?_
  rw [mm_at, bias_rows_at]
  rfl

end Cert.TernaryLinear

end
-- ==== Proof.Blocks.lean ====
/-
  From blocks to the whole array.

  The call runs over 32 grid points. Point `t` is handed rows `1024·t … 1024·t + 1023` of the activations
  `A : [32768, 1024]`, the whole transposed weight `Wt : [1024, 1024]` and the whole bias row `B : [1, 1024]`, and it
  writes back rows `1024·t … 1024·t + 1023` of the result. Each written block is the matching block of ONE function of
  the three arrays,
      rowsTimes A Wt B [i, n] = (∑ k, A[i, k] · Wt[k, n]) + B[0, n],
  and the 32 row blocks cover all 32768 rows, so after the call the result array is that function.
-/
import proofs.«125868_j44702019617522_2_alg».proof.Proof.Gen.KernelIdeal.Frame
import proofs.«125868_j44702019617522_2_alg».proof.Proof.Payload
import Idealize.ShloMosaic.Lib.Pipeline.Value
import Idealize.ShloMosaic.Lib.ValueIdx

noncomputable section

namespace Cert.TernaryLinear

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- Every row of `A` against every column of `Wt`, plus the bias row. -/
def rowsTimes (A : S32768x1024.Idx → EReal) (Wt : S1024x1024.Idx → EReal) (B : S1x1024.Idx → EReal) :
    S32768x1024.Idx → EReal :=
  fun i => (∑ k : Fin 1024, A (ix2 (i 0 : Fin 32768) k) * Wt (ix2 k (i 1 : Fin 1024))) + B (ix2 (0 : Fin 1) (i 1 : Fin 1024))

/-- Two indices with the same coordinates read the same entry. -/
theorem read_congr {S : Shape} {α : Type} (f : S.Idx → α) {i j : S.Idx} (h : ∀ a, (i a).val = (j a).val) : f i = f j :=
  congrArg f (funext fun a => Fin.ext (h a))

/-- The block indices over the grid: the activations' row block moves with the result's, whose column block is always
    0 and whose row block stays below 32; the weight and the bias are always at block (0, 0). -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 31 :=
  (by decide +kernel : ∀ t : Fin grid0.N, _)

/-- Every one of the 32 row blocks is some point's. -/
theorem idx_onto : ∀ q0 : Fin 32, ∃ t : Fin cfg0.N, win0_3.index t = ![q0.val, 0] :=
  (by decide +kernel : ∀ q0 : Fin 32, ∃ t : Fin grid0.N, win0_3.index t = ![q0.val, 0])

/-- What point `t` writes back is block `t` of `rowsTimes` of the three arrays as the call finds them. -/
theorem flushed_eq (c : Dev nD) (t : Fin cfg0.N) :
    (dats m 0 c).flushed 3 t = ((cfg0.win 3).blk t).view.read (Elt Ideal)
      (rowsTimes (V m c main_v17) (V m c main_v16) (V m c main_v18)) := by
  show (cfg0.win 3).cut (grid0.coords t) ((dats m 0 c).after 3 t) = _
  rw [after0_3]
  unfold out0_3
  rw [View.canon_unit_zero hz]
  simp only [View.ld_unit_zero (S := S1024x1024) hz, View.ld_unit_zero (S := S1x1024) hz]
  obtain ⟨e0, e1, e2, e3, e4, e5, e6, e7⟩ := idx_facts t
  refine funext fun (j : S1024x1024.Idx) => ?_
  obtain ⟨r, n, rfl⟩ : ∃ (r n : Fin 1024), j = ix2 r n := ⟨j 0, j 1, eq_ix2 j⟩
  show k0_pay1 (F := Ideal) (iblk m c 0 t) (iblk m c 1 t) (iblk m c 2 t) (ix2 r n)
    = rowsTimes (V m c main_v17) (V m c main_v16) (V m c main_v18) (((cfg0.win 3).blk t).view.emb (ix2 r n))
  refine (body_at (iblk m c 0 t) (iblk m c 1 t) (iblk m c 2 t) r n).trans ?_
  unfold rowsTimes
  refine congrArg₂ (· + ·) (Finset.sum_congr rfl fun k _ => congrArg₂ (· * ·) ?_ ?_) ?_
  · -- the activations' block at (r, k) is the array at (row of the result's block, k)
    show V m c main_v17 (((cfg0.win 0).blk t).view.emb (ix2 r k)) = V m c main_v17 _
    refine read_congr (S := S32768x1024) (V m c main_v17) fun a => ?_
    match a with
    | ⟨0, _⟩ => show win0_0.index t (0 : Fin 2) * 1024 + 1 * r.val = win0_3.index t (0 : Fin 2) * 1024 + 1 * r.val; omega
    | ⟨1, _⟩ => show win0_0.index t (1 : Fin 2) * 1024 + 1 * k.val = k.val; omega
  · -- the weight's block at (k, n) is the array at (k, column of the result's block)
    show V m c main_v16 (((cfg0.win 1).blk t).view.emb (ix2 k n)) = V m c main_v16 _
    refine read_congr (S := S1024x1024) (V m c main_v16) fun a => ?_
    match a with
    | ⟨0, _⟩ => show win0_1.index t (0 : Fin 2) * 1024 + 1 * k.val = k.val; omega
    | ⟨1, _⟩ => show win0_1.index t (1 : Fin 2) * 1024 + 1 * n.val = win0_3.index t (1 : Fin 2) * 1024 + 1 * n.val; omega
  · -- the bias block at (0, n) is the array at (0, column of the result's block)
    show V m c main_v18 (((cfg0.win 2).blk t).view.emb (ix2 (0 : Fin 1) n)) = V m c main_v18 _
    refine read_congr (S := S1x1024) (V m c main_v18) fun a => ?_
    match a with
    | ⟨0, _⟩ => show win0_2.index t (0 : Fin 2) * 1 + 1 * 0 = 0; omega
    | ⟨1, _⟩ => show win0_2.index t (1 : Fin 2) * 1024 + 1 * n.val = win0_3.index t (1 : Fin 2) * 1024 + 1 * n.val; omega

/-- An index of the result array is in point `t`'s block iff each coordinate is in the block's range on its axis. -/
theorem mem_blk (t : Fin cfg0.N) (i : S32768x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v19).slice (win0_3.rect t)).set ↔ _
  rw [View.set_slice_whole, Rect.mem_set_unit]
  exact Iff.rfl

/-- Row `i` lies in the block of the point whose row block is `i / 1024`. -/
theorem covered (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The result array after the call. -/
theorem final (c : Dev nD) :
    (dats m 0 c).arrAt 3 cfg0.N = rowsTimes (V m c main_v17) (V m c main_v16) (V m c main_v18) :=
  (dats m 0 c).arrAt_eq_of_cover 3 _ (fun t _ => flushed_eq m c t) covered

end Cert.TernaryLinear

end
-- ==== Proof.RefAt.lean ====
/-
  The reference's result at one index.

  The reference multiplies the activations `x : [8, 4096, 1024]` by the quantized weight
  `W_q : [1024 (out), 1024 (in)]` along the input axis and adds the bias:
      out[b, s, n] = (∑ k, x[b, s, k] · W_q[n, k]) + bias[n].
  The quantized weight is the threshold-ternary matrix times the learned scale, a function of the weight and the
  scale only; nothing below looks inside it, so it is carried as ONE named function `Wq`.
-/
import proofs.«125868_j44702019617522_2_alg».proof.Proof.Gen.ReferenceIdeal.Read
import Idealize.ShloMosaic.Lib.ValueIdx

noncomputable section

namespace Cert.TernaryLinear

open Idealize.ShloMosaic Idealize.ShloMosaic.ValueIdx Cert.ReferenceIdeal Cert.ReferenceIdeal.Read

/-- The quantized weight `W_q[o, i]` as a function of the weight matrix and the scale: the entry is `+scale` where the
    weight exceeds the threshold `0.7 · mean |W|`, `-scale` where it is below the negated threshold, and `0 · scale`
    between. Its inside is never opened: both programs compute it by the same operations. -/
def Wq (w : (⟨S1024x1024, .f32⟩ : BufTy).Contents (Elt Ideal)) (sc : (⟨S1, .f32⟩ : BufTy).Contents (Elt Ideal)) :
    (⟨S1024x1024, .f32⟩ : BufTy).Contents (Elt Ideal) :=
  val_main_v14 (F := Ideal) w sc

/-- The reference's result at `(b, s, n)`: the row `x[b, s, ·]` against the row `W_q[n, ·]`, plus `bias[n]`. -/
theorem ref_at (x0 : (⟨S8x4096x1024, .f32⟩ : BufTy).Contents (Elt Ideal)) (x1 : (⟨S1024x1024, .f32⟩ : BufTy).Contents (Elt Ideal))
    (x2 : (⟨S1, .f32⟩ : BufTy).Contents (Elt Ideal)) (x3 : (⟨S1024, .f32⟩ : BufTy).Contents (Elt Ideal))
    (b : Fin 8) (s : Fin 4096) (n : Fin 1024) :
    val_main_v18 (F := Ideal) x0 x1 x2 x3 (ix3 b s n)
      = (∑ k : Fin 1024, x0 (ix3 b s k) * Wq x1 x2 (ix2 n k)) + x3 (ix1 n) := by
  -- the contraction reads x at (b, s, k) and the weight at (n, k); the bias is read at n
  have el : ∀ k : Fin 1024, lidx_main_v15 (ix3 b s n) k = ix3 b s k := fun k =>
    funext fun a => Fin.ext (by match a with | ⟨0, _⟩ => rfl | ⟨1, _⟩ => rfl | ⟨2, _⟩ => rfl)
  have er : ∀ k : Fin 1024, ridx_main_v15 (ix3 b s n) k = ix2 n k := fun k =>
    funext fun a => Fin.ext (by match a with | ⟨0, _⟩ => rfl | ⟨1, _⟩ => rfl)
  have eb : idx_main_v16 (idx_main_v17 (ix3 b s n)) = ix1 n :=
    funext fun a => Fin.ext (by match a with | ⟨0, _⟩ => rfl)
  rw [val_main_v18_apply, val_main_v15_apply, val_main_v17_apply, val_main_v16_apply, eb]
  simp only [el, er, Ideal.addf_def]
  rfl

end Cert.TernaryLinear

end
-- ==== Proof.KernelHost.lean ====
/-
  The three arrays as the call finds them.

  Before the call the program reshapes the activations `x : [8, 4096, 1024]` to `[32768, 1024]` (row `4096·b + s` is
  `x[b, s, ·]`), reshapes the bias `[1024]` to a row `[1, 1024]`, and builds the weight operand: the quantized weight
  `W_q : [out, in]`, rounded to bf16 (no change of value on the extended reals) and transposed to `[in, out]`.
-/
import proofs.«125868_j44702019617522_2_alg».proof.Proof.Gen.KernelIdeal.Frame
import proofs.«125868_j44702019617522_2_alg».proof.Proof.RefAt
import Idealize.ShloMosaic.Lib.StableHlo.Run
import Idealize.ShloMosaic.Lib.Pipeline.Value
import Idealize.ShloMosaic.Lib.ValueLayout
import Idealize.ShloMosaic.Lib.ValueIdx

noncomputable section

namespace Cert.TernaryLinear

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ)

/-- The activations as the call finds them: the argument reshaped to 32768 rows. -/
theorem found_x (c : Dev nD) : (V m c main_v17 : S32768x1024.Idx → EReal)
    = shapeCast S32768x1024 (m ((c : Thread nD τ).loc main_arg0)) Gen.shapeCasts_S8x4096x1024_S32768x1024 := by
  dsimp only [V, V0]
  simp only [hostOps0, hostOps0_1, hostOps0_2, hostOps0_3, hostOps0_4, List.flatten_cons, List.flatten_nil, List.append_nil,
    List.cons_append, List.nil_append]
  after_results
  rfl

/-- The bias as the call finds it: the argument as one row. -/
theorem found_b (c : Dev nD) : (V m c main_v18 : S1x1024.Idx → EReal)
    = shapeCast S1x1024 (m ((c : Thread nD τ).loc main_arg3)) Gen.shapeCasts_S1024_S1x1024 := by
  dsimp only [V, V0]
  simp only [hostOps0, hostOps0_1, hostOps0_2, hostOps0_3, hostOps0_4, List.flatten_cons, List.flatten_nil, List.append_nil,
    List.cons_append, List.nil_append]
  after_results
  rfl

set_option maxHeartbeats 2000000 in
/-- The weight operand as the call finds it: the quantized weight of the weight and scale arguments, rounded and
    transposed. -/
theorem found_w (c : Dev nD) : (V m c main_v16 : S1024x1024.Idx → EReal)
    = transpose S1024x1024 [1, 0]
        (truncf (F := Ideal) (s := S1024x1024) (φ := .f32) .bf16
          (Wq (m ((c : Thread nD τ).loc main_arg1)) (m ((c : Thread nD τ).loc main_arg2))) Gen.bitsLt_bf16_f32)
        Gen.transposes_S1024x1024_S1024x1024_1_0 := by
  dsimp only [V, V0]
  simp only [hostOps0, hostOps0_1, hostOps0_2, hostOps0_3, hostOps0_4, List.flatten_cons, List.flatten_nil, List.append_nil,
    List.cons_append, List.nil_append]
  after_results
  rfl

/-- A `[8, 4096, 1024]` array viewed as 32768 rows: row `4096·b + s` is the row `(b, s)`. -/
theorem rows_of_3d_at (x : S8x4096x1024.Idx → EReal) (h : S8x4096x1024.ShapeCasts S32768x1024)
    (b : Fin 8) (s : Fin 4096) (k : Fin 1024) (i : Fin 32768) (hi : i.val = b.val * 4096 + s.val) :
    shapeCast S32768x1024 x h (ix2 i k) = x (ix3 b s k) := by
  refine shapeCast_apply x h _ _ ?_
  rw [Shape.rowMajor_val_three, Shape.rowMajor_val_two]
  show (b.val * 4096 + s.val) * 1024 + k.val = i.val * 1024 + k.val
  rw [hi]

/-- A `[1024]` array viewed as one row. -/
theorem row_of_1d_at (x : S1024.Idx → EReal) (h : S1024.ShapeCasts S1x1024) (n : Fin 1024) :
    shapeCast S1x1024 x h (ix2 (0 : Fin 1) n) = x (ix1 n) := by
  refine shapeCast_apply x h _ _ ?_
  rw [Shape.rowMajor_val_one, Shape.rowMajor_val_two]
  show n.val = 0 * 1024 + n.val
  omega

/-- Row `4096·b + s` of the activations as the call finds them is `x[b, s, ·]`. -/
theorem found_x_at (c : Dev nD) (b : Fin 8) (s : Fin 4096) (k : Fin 1024) (i : Fin 32768) (hi : i.val = b.val * 4096 + s.val) :
    (V m c main_v17 : S32768x1024.Idx → EReal) (ix2 i k) = m ((c : Thread nD τ).loc main_arg0) (ix3 b s k) := by
  rw [found_x]
  exact rows_of_3d_at _ _ b s k i hi

/-- The bias row at column `n` is `bias[n]`. -/
theorem found_b_at (c : Dev nD) (n : Fin 1024) :
    (V m c main_v18 : S1x1024.Idx → EReal) (ix2 (0 : Fin 1) n) = m ((c : Thread nD τ).loc main_arg3) (ix1 n) := by
  rw [found_b]
  exact row_of_1d_at _ _ n

/-- The weight operand at `(k, n)` is the quantized weight at `(n, k)`. -/
theorem found_w_at (c : Dev nD) (k n : Fin 1024) :
    (V m c main_v16 : S1024x1024.Idx → EReal) (ix2 k n)
      = Wq (m ((c : Thread nD τ).loc main_arg1)) (m ((c : Thread nD τ).loc main_arg2)) (ix2 n k) := by
  rw [found_w]
  exact (transpose_ix2_apply _ _ k n).trans rfl

end Cert.TernaryLinear

end
-- ==== Proof.KernelValue.lean ====
/-
  The kernel program's result, and its run.

  After the call the program reshapes the call's result `[32768, 1024]` back to `[8, 4096, 1024]`: entry `(b, s, n)` is
  the call's result at row `4096·b + s`, column `n`. With the arrays the call found (the activations' row
  `4096·b + s` is `x[b, s, ·]`, the weight operand at `(k, n)` is `W_q[n, k]`, the bias row at `n` is `bias[n]`)
  this is
      (∑ k, x[b, s, k] · W_q[n, k]) + bias[n],
  the reference's result at `(b, s, n)`: the same products summed over the same index `k`.
-/
import proofs.«125868_j44702019617522_2_alg».proof.Proof.Blocks
import proofs.«125868_j44702019617522_2_alg».proof.Proof.KernelHost
import Idealize.ShloMosaic.Lib.StableHlo.Run

noncomputable section

namespace Cert.TernaryLinear

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg)

/-- The program's result buffer after the lines that follow the call: the call's result array, reshaped. -/
theorem tail_eq (c : Dev nD) :
    (Pipeline.afterTail₀ cfgs (dats m) 0 (V0 m) [hostOps1] c main_v20 : S8x4096x1024.Idx → EReal)
      = shapeCast S8x4096x1024 (rowsTimes (V m c main_v17) (V m c main_v16) (V m c main_v18))
          Gen.shapeCasts_S32768x1024_S8x4096x1024 := by
  unfold Pipeline.afterTail₀
  show StableHlo.after hostOps1 _ (Proc.devRef .tc main_v20) = _
  after_results
  have hw : Pipeline.withArrays (cfgs 0).spec c (V0 m c) (fun w => (dats m 0 c).arrAt w (cfgs 0).N) (Proc.devRef .tc main_v19)
      = rowsTimes (V m c main_v17) (V m c main_v16) (V m c main_v18) :=
    (Pipeline.withArrays_arr spec0 launch0.win.arr_inj c _ _ 3).trans (final m c)
  rw [hw]
  rfl

/-- The program's result is the reference's result function of the same four argument arrays. -/
theorem kernel_result (c : Dev nD) :
    (Pipeline.afterTail₀ cfgs (dats m) 0 (V0 m) [hostOps1] c main_v20 : S8x4096x1024.Idx → EReal)
      = Cert.ReferenceIdeal.Read.val_main_v18 (F := Ideal) (m ((c.tc : Thread nD τ).loc main_arg0))
          (m ((c.tc : Thread nD τ).loc main_arg1)) (m ((c.tc : Thread nD τ).loc main_arg2)) (m ((c.tc : Thread nD τ).loc main_arg3)) := by
  rw [tail_eq]
  funext i
  obtain ⟨b, s, n, rfl⟩ : ∃ (b : Fin 8) (s : Fin 4096) (n : Fin 1024), i = ix3 b s n := ⟨i 0, i 1, i 2, eq_ix3 i⟩
  rw [ref_at]
  have hlt : b.val * 4096 + s.val < 32768 := by omega
  -- entry (b, s, n) of the reshaped result is row 4096·b + s, column n of the call's result
  refine (shapeCast_apply _ _ (ix3 b s n) (ix2 (⟨b.val * 4096 + s.val, hlt⟩ : Fin 32768) n) ?_).trans ?_
  · rw [Shape.rowMajor_val_two, Shape.rowMajor_val_three]
    rfl
  · unfold rowsTimes
    exact congrArg₂ (· + ·)
      (Finset.sum_congr rfl fun k _ => congrArg₂ (· * ·) (found_x_at m c b s k ⟨_, hlt⟩ rfl) (found_w_at m c k n))
      (found_b_at m c n)

/-- Every weakly fair execution of the kernel program terminates with its result buffer at the reference's result
    function of the argument arrays, and the arguments unchanged. -/
theorem kernel_run : θ_run defs (onTc (τ := τ) (main (F := Ideal))) ⟨m, fun _ => 0, ρ⟩ fun r => ∀ c : Dev nD,
      r.2.mem ((c.tc : Thread nD τ).loc main_v20)
        = Cert.ReferenceIdeal.Read.val_main_v18 (F := Ideal) (m ((c.tc : Thread nD τ).loc main_arg0))
            (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v20 (Pipeline.mem_restRefs_of main_v20 (by decide) (by decide))).trans (kernel_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.TernaryLinear

end
-- ==== Proof.lean ====
/-
  A ternary-weight linear layer, as a tiled kernel and as a plain program, computes one function on the extended reals.

  Both programs first build the quantized weight `W_q[o, i]` from the weight matrix and the scale by the same
  operations (`+scale`, `0 · scale` or `-scale` according to the threshold `0.7 · mean |W|`); that part is carried as one
  function and never opened. The reference then contracts `x[b, s, ·]` with `W_q[n, ·]` and adds `bias[n]`. The kernel
  program views `x` as 32768 rows, transposes `W_q` (rounding it to bf16, which changes nothing on the extended
  reals), multiplies 1024 rows at a time into a zero accumulator and adds the bias row, then views the 32768 result
  rows as `[8, 4096, 1024]` again. Entry `(b, s, n)` of either result is
      (∑ k, x[b, s, k] · W_q[n, k]) + bias[n]:
  the same products, in the same order of factors, summed over the same index — no law of the extended reals beyond
  re-indexing a finite sum is used, so the finiteness of the inputs is never needed.

  The modules: `RefAt` (the reference's result at an index), `Payload` (what one grid point stores, at an index),
  `Blocks` (the 32 row blocks make up the whole result array), `KernelHost` (the three arrays as the call finds them),
  `KernelValue` (the reshape after the call, and the kernel program's run).
-/
import proofs.«125868_j44702019617522_2_alg».proof.Defs
import proofs.«125868_j44702019617522_2_alg».proof.Proof.Gen.Kernel
import proofs.«125868_j44702019617522_2_alg».proof.Proof.Gen.Kernel.Skeleton
import proofs.«125868_j44702019617522_2_alg».proof.Proof.Gen.Kernel.Launch
import proofs.«125868_j44702019617522_2_alg».proof.Proof.Gen.Kernel.Points
import proofs.«125868_j44702019617522_2_alg».proof.Proof.Gen.Kernel.Frame
import proofs.«125868_j44702019617522_2_alg».proof.Proof.Gen.KernelIdeal
import proofs.«125868_j44702019617522_2_alg».proof.Proof.Gen.KernelIdeal.Skeleton
import proofs.«125868_j44702019617522_2_alg».proof.Proof.Gen.KernelIdeal.Launch
import proofs.«125868_j44702019617522_2_alg».proof.Proof.Gen.KernelIdeal.Points
import proofs.«125868_j44702019617522_2_alg».proof.Proof.Gen.KernelIdeal.Frame
import proofs.«125868_j44702019617522_2_alg».proof.Proof.Gen.ReferenceIdeal
import proofs.«125868_j44702019617522_2_alg».proof.Proof.Gen.ReferenceIdeal.Run
import proofs.«125868_j44702019617522_2_alg».proof.Proof.Gen.ReferenceIdeal.Read
import proofs.«125868_j44702019617522_2_alg».proof.Proof.Gen.Pre_finite_inputs
import proofs.«125868_j44702019617522_2_alg».proof.Proof.KernelValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference runs and leaves its arguments unchanged: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the same result array: the reference's
    result function of the arguments, which the kernel program's result was shown to be index by index. -/
theorem algebraic : Cert.algebraic_KernelIdeal_ReferenceIdeal := by
  intro m ρ m' ρ' _ hagree
  refine ⟨fun c => Cert.ReferenceIdeal.Read.val_main_v18 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.TernaryLinear.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.ReferenceIdeal.Read.val_main_v18_eq _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
